-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.FrameBits.Runs.lean ====
/-
  The kernel body of the graph convolution, run symbolically on whole staging buffers, in its two control cases.
  The body first tests whether the grid coordinate is zero. At the first grid point it loads the feature matrix and
  the weight matrix, multiplies them, and stores the product Y = x·w into the scratch buffer, which the kernel keeps
  between grid points. At every point it then loads the two row blocks of the adjacency matrix and the scratch, and
  stores the two products (block)·Y into the upper and the lower half of the output block. The two runs below state
  this as separation-logic triples: the input buffers are handed back as they were, the output buffer ends with the
  two stored pieces written, the scratch ends with Y written (first point) or as it was found (later points).
-/
import proofs.«166500_g60559038874088_cont_9to1_m_10_19_alg».proof.Proof.Gen.Kernel.Launch
import proofs.«166500_g60559038874088_cont_9to1_m_10_19_alg».proof.Proof.Gen.Kernel.Skeleton
import proofs.«166500_g60559038874088_cont_9to1_m_10_19_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The condition of the body's one conditional, from the grid coordinate: "the coordinate is zero". -/
abbrev cond0 (i : grid0.Coords) : Prop :=
  (Scalar.cmpi .ne (Scalar.extui (Scalar.cmpi .eq (BitVec.ofNat 32 (i 0).val) 0#32)) 0#32) = 1#1

/-- It holds at the first of the 25 grid points and at no other. -/
theorem hcond0 : ∀ t : Fin cfg0.N, cond0 (grid0.coords t) ↔ t.val = 0 :=
  (by decide +kernel : ∀ t : Fin grid0.N, cond0 (grid0.coords t) ↔ t.val = 0)

/-! ## The two runs -/

set_option maxHeartbeats 1000000 in
/-- FIRST POINT (the condition holds). From the four input buffers at contents a0, a1, x, w, the output buffer and the
    scratch at anything, the body runs to: the inputs as they were, the output buffer with the pieces L4 written,
    the scratch with the pieces LS written. The pieces are what the run finds. -/
noncomputable def runFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : cond0 i)
    (a0 : Vec F S200x10000 .f32) (a1 : Vec F S200x10000 .f32) (x : Vec F S10000x128 .f32) (w : Vec F S128x128 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare a0 ∗ owns (c : Thread nD τ) arg2 fullShare a1 ∗ owns (c : Thread nD τ) arg3 fullShare x ∗ owns (c : Thread nD τ) arg4 fullShare w
            ∗ (∃ d, owns (c : Thread nD τ) arg5 fullShare d) ∗ (∃ d, owns (c : Thread nD τ) arg6 fullShare d)
            ∗ (iprop(owns (c : Thread nD τ) arg1 fullShare a0 ∗ owns (c : Thread nD τ) arg2 fullShare a1 ∗ owns (c : Thread nD τ) arg3 fullShare x ∗ owns (c : Thread nD τ) arg4 fullShare w
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gc_body i arg1 harg1 arg2 harg2 arg3 harg3 arg4 harg4 arg5 harg5 arg6 harg6) K } := by
  refine ⟨?_, ?_, fun E K => ?run⟩
  case run =>
    simp only [cc0__gc_body_eq_skeleton]; unfold cc0__gc_body_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- A LATER POINT (the condition fails). From the two adjacency blocks at contents a0, a1, the other two inputs at
    x, w, the scratch at contents y, the output buffer at anything, the body runs to: the inputs and the scratch as
    they were, the output buffer with the pieces L4 written. -/
noncomputable def runLater (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : ¬cond0 i)
    (a0 : Vec F S200x10000 .f32) (a1 : Vec F S200x10000 .f32) (x : Vec F S10000x128 .f32) (w : Vec F S128x128 .f32) (y : Vec F S10000x128 .f32) :
    { L4 : List (View.Piece (Elt F) S400x128 .f32) //
      ∀ (E : Set ℕ) (K : PUnit → sProp 𝕄),
        iprop(owns (c : Thread nD τ) arg1 fullShare a0 ∗ owns (c : Thread nD τ) arg2 fullShare a1 ∗ owns (c : Thread nD τ) arg3 fullShare x ∗ owns (c : Thread nD τ) arg4 fullShare w
            ∗ (∃ d, owns (c : Thread nD τ) arg5 fullShare d) ∗ owns (c : Thread nD τ) arg6 fullShare y
            ∗ (iprop(owns (c : Thread nD τ) arg1 fullShare a0 ∗ owns (c : Thread nD τ) arg2 fullShare a1 ∗ owns (c : Thread nD τ) arg3 fullShare x ∗ owns (c : Thread nD τ) arg4 fullShare w
                ∗ (∃ f, arg5.view.loc (c : Thread nD τ) ↦[arg5.view.set]{fullShare} arg5.view.writes (Elt F) f L4)
                ∗ owns (c : Thread nD τ) arg6 fullShare y) -∗ K ⟨⟩))
          ⊢ wp frame (wpE (defs₀ (F := F)) Variants.none c none) E (cc0__gc_body i arg1 harg1 arg2 harg2 arg3 harg3 arg4 harg4 arg5 harg5 arg6 harg6) K } := by
  refine ⟨?_, fun E K => ?run⟩
  case run =>
    simp only [cc0__gc_body_eq_skeleton]; unfold cc0__gc_body_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4
    obtain rfl := harg6.eq_unread hf6
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.Kernel.Frame

end
-- ==== Proof.FrameBits.Body.lean ====
/-
  The proof data of the pipelined graph convolution and its body obligation.
  The pipeline has 25 grid points. Windows 0 and 1 read the even and the odd 200-row block of the adjacency matrix
  (rows 400t..400t+199 and 400t+200..400t+399 at point t), windows 2 and 3 the whole feature matrix and the whole
  weight matrix (fetched once), window 4 writes rows 400t..400t+399 of the result at every point. The scratch buffer
  holds Y = x·w from the first point on: the invariant between points is "the scratch holds Y" (before the first
  point: the scratch holds anything). After the body at point t each input's staging buffer holds its block, and the
  output's staging buffer holds the two pieces the body stored, (even block)·Y above (odd block)·Y.
-/
import proofs.«166500_g60559038874088_cont_9to1_m_10_19_alg».proof.Proof.FrameBits.Runs

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays, the blocks, the staging buffers -/

/-- Core `c`'s buffer contents when the region is entered: the launch memory (no host operation precedes the call). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, as the pipeline passes it to the body. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
/-- The scratch operand: a whole buffer of the kernel's own. -/
abbrev scM : Memref sig .tc .vmem S10000x128 .f32 := Memref.whole cc0_scratch0
/-- The views through which the scratch's and the output block's contents are stated. -/
abbrev VS : View sig .tc .vmem S10000x128 .f32 := scM.view
abbrev VO : View sig .tc .vmem S400x128 .f32 := (Memref.whole cc0_stg4_0 : Memref sig .tc .vmem S400x128 .f32).view

/-- The first grid point. -/
def t0 : Fin cfg0.N := ⟨0, by rw [show cfg0.N = 25 from N_0]; decide⟩

/-! ## The runs at a point, and what they leave -/

/-- The first-point run at point `t` (which is the first), on the point's staging buffers and blocks. -/
abbrev runA (c : Dev nD) (t : Fin cfg0.N) (h : t.val = 0) :=
  runFirst (F := F) c (grid0.coords t) (ms0_0 t) (hs0_0 t) (ms0_1 t) (hs0_1 t) (ms0_2 t) (hs0_2 t) (ms0_3 t) (hs0_3 t) (ms0_4 t) (hs0_4 t)
    scM (Memref.isWhole_whole _) ((hcond0 t).mpr h) (iblk m c 0 t) (iblk m c 1 t) (iblk m c 2 t) (iblk m c 3 t)

/-- What the kernel keeps in the scratch from the first point on: the pieces the first-point run stored, read back
    (the one piece covers the scratch: it is the product of the feature and weight matrices). -/
def Y (c : Dev nD) : Vec F S10000x128 .f32 :=
  VS.read (Elt F) (VS.writes (Elt F) VS.junk (runA m c t0 rfl).2.1)

/-- The later-point run at point `t`, the scratch at `Y`. -/
abbrev runB (c : Dev nD) (t : Fin cfg0.N) (h : ¬t.val = 0) :=
  runLater (F := F) c (grid0.coords t) (ms0_0 t) (hs0_0 t) (ms0_1 t) (hs0_1 t) (ms0_2 t) (hs0_2 t) (ms0_3 t) (hs0_3 t) (ms0_4 t) (hs0_4 t)
    scM (Memref.isWhole_whole _) (fun hc => h ((hcond0 t).mp hc)) (iblk m c 0 t) (iblk m c 1 t) (iblk m c 2 t) (iblk m c 3 t) (Y m c)

/-- What the body leaves in the output's staging buffer at point `t`: the stored pieces read back. -/
def out4 (c : Dev nD) (t : Fin cfg0.N) : Vec F S400x128 .f32 :=
  if h : t.val = 0 then VO.read (Elt F) (VO.writes (Elt F) VO.junk (runA m c t h).1)
  else VO.read (Elt F) (VO.writes (Elt F) VO.junk (runB m c t h).1)

theorem out4_first (c : Dev nD) (t : Fin cfg0.N) (h : t.val = 0) :
    out4 m c t = VO.read (Elt F) (VO.writes (Elt F) VO.junk (runA m c t h).1) := dif_pos h
theorem out4_later (c : Dev nD) (t : Fin cfg0.N) (h : ¬t.val = 0) :
    out4 m c t = VO.read (Elt F) (VO.writes (Elt F) VO.junk (runB m c t h).1) := dif_neg h

/-! ## The stored pieces cover their buffers -/

/-- The first-point run's pieces for the scratch tile it (one store of the whole shape). -/
theorem scoverFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : cond0 i) (a0 a1 : Vec F S200x10000 .f32) (x : Vec F S10000x128 .f32) (w : Vec F S128x128 .f32) (y : S10000x128.Idx) :
    ∃ pc ∈ (runFirst (F := F) c i arg1 harg1 arg2 harg2 arg3 harg3 arg4 harg4 arg5 harg5 arg6 harg6 hc0 a0 a1 x w).2.1, y ∈ pc.1.set :=
  View.cover_of_tiledL (runFirst (F := F) c i arg1 harg1 arg2 harg2 arg3 harg3 arg4 harg4 arg5 harg5 arg6 harg6 hc0 a0 a1 x w).2.1 S10000x128.size (by sl_kernel_rfl) y

/-- The first-point run's pieces for the output block tile it (two stores of 200 rows each). -/
theorem coverFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : cond0 i) (a0 a1 : Vec F S200x10000 .f32) (x : Vec F S10000x128 .f32) (w : Vec F S128x128 .f32) (y : S400x128.Idx) :
    ∃ pc ∈ (runFirst (F := F) c i arg1 harg1 arg2 harg2 arg3 harg3 arg4 harg4 arg5 harg5 arg6 harg6 hc0 a0 a1 x w).1, y ∈ pc.1.set :=
  View.cover_of_tiledL (runFirst (F := F) c i arg1 harg1 arg2 harg2 arg3 harg3 arg4 harg4 arg5 harg5 arg6 harg6 hc0 a0 a1 x w).1 S200x128.size (by sl_kernel_rfl) y

/-- The later-point run's pieces for the output block tile it. -/
theorem coverLater (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : ¬cond0 i) (a0 a1 : Vec F S200x10000 .f32) (x : Vec F S10000x128 .f32) (w : Vec F S128x128 .f32) (ys : Vec F S10000x128 .f32) (y : S400x128.Idx) :
    ∃ pc ∈ (runLater (F := F) c i arg1 harg1 arg2 harg2 arg3 harg3 arg4 harg4 arg5 harg5 arg6 harg6 hc0 a0 a1 x w ys).1, y ∈ pc.1.set :=
  View.cover_of_tiledL (runLater (F := F) c i arg1 harg1 arg2 harg2 arg3 harg3 arg4 harg4 arg5 harg5 arg6 harg6 hc0 a0 a1 x w ys).1 S200x128.size (by sl_kernel_rfl) y

/-! ## The invariant between points -/

/-- Before the first point the scratch holds anything (what the launch hands the region); from then on it holds `Y`. -/
def PhiS (c : Dev nD) : (n : ℕ) → n ≤ cfg0.N → sProp 𝕄
  | 0, _ => iprop(∃ d, owns (c : Thread nD τ) scM fullShare d)
  | _ + 1, _ => owns (c : Thread nD τ) scM fullShare (Y m c)

theorem PhiS_zero (c : Dev nD) (n : ℕ) (h : n ≤ cfg0.N) (hz : n = 0) :
    PhiS m c n h = iprop(∃ d, owns (c : Thread nD τ) scM fullShare d) := by subst hz; rfl
theorem PhiS_pos (c : Dev nD) (n : ℕ) (h : n ≤ cfg0.N) (hz : n ≠ 0) :
    PhiS m c n h = owns (c : Thread nD τ) scM fullShare (Y m c) := by
  cases n with
  | zero => exact absurd rfl hz
  | succ n => rfl

/-- The scoped buffers that are no staging buffer, as the launch hands them over: the scratch at anything. -/
theorem scopedRest_scratch (c : Dev nD) :
    (Pipeline.scopedRest spec0 c : sProp 𝕄) = iprop(∃ d, owns (c : Thread nD τ) scM fullShare d) := by
  rw [scopedRest0_eq]; simp only [scM, owns_whole]; try rfl

/-! ## The proof data -/

/-- The arrays at their launch contents; after the body each input's buffer at its block and the output's at `out4`;
    the invariant `PhiS`; the adjacency matrix, read through two windows, held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The output's staging buffer, written back at every point, holds nothing the body may rely on. -/
theorem before0_4 (c : Dev nD) (t : Fin cfg0.N) (d) : (dats m 0 c).before 4 t d = d :=
  (dats m 0 c).before_out_reset 4 rfl t
    (by
      by_cases hz : t.val = 0
      · exact .inl hz
      · exact .inr ⟨hz, flush0_4 _⟩) d

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- No window is ever idle: each live buffer is left at `after`. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rfl

set_option maxHeartbeats 4000000 in
/-- The body at any point. The inputs' buffers hold their blocks; at the first point the scratch holds anything and the
    first-point run applies, leaving `Y` in it; at a later point the scratch holds `Y` and the later-point run
    applies, leaving it there; either way the output's buffer ends at the stored pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_eq, leaves_eq, leaves_eq, leaves_eq, leaves_eq, after0_0, after0_1, after0_2, after0_3, after0_4]
  by_cases hz : t.val = 0
  · obtain rfl : t = t0 := Fin.ext hz
    rw [PhiS_castSucc m c t0, PhiS_zero m c _ _ hz, out4_first m c t0 hz]
    iintro ⟨HS, Ho, ⟨%d0, H0⟩, ⟨%d1, H1⟩, ⟨%d2, H2⟩, ⟨%d3, H3⟩, H4⟩
    iapply ((runA m c t0 hz).2.2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _ _)
  · rw [PhiS_castSucc m c t, PhiS_pos m c _ _ hz, out4_later m c t hz]
    iintro ⟨HS, Ho, ⟨%d0, H0⟩, ⟨%d1, H1⟩, ⟨%d2, H2⟩, ⟨%d3, H3⟩, H4⟩
    iapply ((runB m c t hz).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.FrameBits.Launch.lean ====
/-
  The launch of the pipelined graph convolution and its frame.
  The adjacency matrix is handed to the kernel twice, as the array of window 0 (even 200-row blocks) and of window 1
  (odd ones). Both windows only read it, so its full ownership is dealt half to each; the other three arrays are
  held outright. With the body obligation this gives the run: every weakly fair execution terminates, nothing
  faults, and every windowed array ends at what the write-backs made of it. The three argument arrays are read
  only, so they end as they began: the frame.
-/
import proofs.«166500_g60559038874088_cont_9to1_m_10_19_alg».proof.Proof.FrameBits.Body
import Idealize.ShloMosaic.Lib.Pipeline.Launch
import Idealize.ShloMosaic.Lib.Pipeline.Kit

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The windowed arrays as whole-buffer holdings, each at the share the proof data names. -/
theorem arrays_whole (c : Dev nD) (G : (w : Fin cfg0.W) → Buf (Elt F) ((cfg0.win w).arr.view.loc (c : Thread nD τ))) :
    ((dats m 0 c).arrays G : sProp 𝕄)
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

/-- THE SPLIT. The four buffers behind the five windows' arrays, each whole at the full share, make the proof data's
    arrays at entry: the adjacency matrix's full share is the sum of its left and right halves, one for each of
    the two windows that read it. -/
theorem hsplit (c : Dev nD) :
    (Pipeline.arrBufs spec0 c (V m c) : sProp 𝕄) ⊢ (dats m 0 c).arrays ((dats m 0 c).arrAt · 0) := by
  rw [arrays_whole, bigSep_W0]
  unfold Pipeline.arrBufs
  rw [bigSep_eq_bigSepL_of_eq [main_arg1, main_arg0, main_arg2, main_v0] (by decide) (by decide)]
  show iprop((((c : Thread nD τ).loc main_arg1) ↦{fullShare} V m c main_arg1) ∗ (((c : Thread nD τ).loc main_arg0) ↦{fullShare} V m c main_arg0)
        ∗ (((c : Thread nD τ).loc main_arg2) ↦{fullShare} V m c main_arg2) ∗ (((c : Thread nD τ).loc main_v0) ↦{fullShare} V m c main_v0))
      ⊢ iprop((((c : Thread nD τ).loc main_arg1) ↦{fullShare.left} V m c main_arg1) ∗ (((c : Thread nD τ).loc main_arg1) ↦{fullShare.right} V m c main_arg1)
        ∗ (((c : Thread nD τ).loc main_arg0) ↦{fullShare} V m c main_arg0) ∗ (((c : Thread nD τ).loc main_arg2) ↦{fullShare} V m c main_arg2)
        ∗ (((c : Thread nD τ).loc main_v0) ↦{fullShare} V m c main_v0))
  have hs : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  refine (sep_mono hs .rfl).trans ?_
  iintro ⟨⟨Hl, Hr⟩, Hx, Hw, Ho⟩
  isplitl [Hl]; · iexact Hl
  isplitl [Hr]; · iexact Hr
  isplitl [Hx]; · iexact Hx
  isplitl [Hw]; · iexact Hw
  iexact Ho

/-- What the launch hands the region is the invariant before the first point: the scratch at anything. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest_scratch]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_scratch]
  iintro H; isplitr; · iempintro
  iexists _; iexact H

set_option backward.isDefEq.respectTransparency.types false in
/-- THE RUN. From any memory with zero counters every weakly fair execution of @main terminates, nothing faults, and every
    windowed array ends at what the library computes from the proof data. -/
theorem run_main : θ_run defs (onTc (τ := τ) (main (F := F))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- info: 'Cert.Kernel.Frame.run_main' depends on axioms: [propext, Classical.choice, Quot.sound] -/
#guard_msgs in #print axioms run_main

/-- The three argument arrays are read only: after the run they hold what they held. -/
theorem final_arg1 (c : Dev nD) : (dats m 0 c).arrAt 0 cfg0.N = m ((c : Thread nD τ).loc main_arg1) :=
  ((dats (F := F) m 0 c).arrAt_in (0 : Fin 5) rfl _).trans (A_eq m c 0)
theorem final_arg0 (c : Dev nD) : (dats m 0 c).arrAt 2 cfg0.N = m ((c : Thread nD τ).loc main_arg0) :=
  ((dats (F := F) m 0 c).arrAt_in (2 : Fin 5) rfl _).trans (A_eq m c 2)
theorem final_arg2 (c : Dev nD) : (dats m 0 c).arrAt 3 cfg0.N = m ((c : Thread nD τ).loc main_arg2) :=
  ((dats (F := F) m 0 c).arrAt_in (3 : Fin 5) rfl _).trans (A_eq m c 3)

/-- THE RUN WITH ITS RESULT NAMED: the result array ends at what the 25 write-backs made of it, the arguments as they were. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 4, (h c 2).trans (final_arg0 m c), (h c 0).trans (final_arg1 m c), (h c 3).trans (final_arg2 m c)⟩)
    (run_main m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Frame

end
-- ==== Proof.FrameIdeal.Runs.lean ====
/-
  The kernel body of the graph convolution, run symbolically on whole staging buffers, in its two control cases.
  The body first tests whether the grid coordinate is zero. At the first grid point it loads the feature matrix and
  the weight matrix, multiplies them, and stores the product Y = x·w into the scratch buffer, which the kernel keeps
  between grid points. At every point it then loads the two row blocks of the adjacency matrix and the scratch, and
  stores the two products (block)·Y into the upper and the lower half of the output block. The two runs below state
  this as separation-logic triples: the input buffers are handed back as they were, the output buffer ends with the
  two stored pieces written, the scratch ends with Y written (first point) or as it was found (later points).
-/
import proofs.«166500_g60559038874088_cont_9to1_m_10_19_alg».proof.Proof.Gen.KernelIdeal.Launch
import proofs.«166500_g60559038874088_cont_9to1_m_10_19_alg».proof.Proof.Gen.KernelIdeal.Skeleton
import proofs.«166500_g60559038874088_cont_9to1_m_10_19_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The condition of the body's one conditional, from the grid coordinate: "the coordinate is zero". -/
abbrev cond0 (i : grid0.Coords) : Prop :=
  (Scalar.cmpi .ne (Scalar.extui (Scalar.cmpi .eq (BitVec.ofNat 32 (i 0).val) 0#32)) 0#32) = 1#1

/-- It holds at the first of the 25 grid points and at no other. -/
theorem hcond0 : ∀ t : Fin cfg0.N, cond0 (grid0.coords t) ↔ t.val = 0 :=
  (by decide +kernel : ∀ t : Fin grid0.N, cond0 (grid0.coords t) ↔ t.val = 0)

/-! ## The two runs -/

set_option maxHeartbeats 1000000 in
/-- FIRST POINT (the condition holds). From the four input buffers at contents a0, a1, x, w, the output buffer and the
    scratch at anything, the body runs to: the inputs as they were, the output buffer with the pieces L4 written,
    the scratch with the pieces LS written. The pieces are what the run finds. -/
noncomputable def runFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : cond0 i)
    (a0 : Vec F S200x10000 .f32) (a1 : Vec F S200x10000 .f32) (x : Vec F S10000x128 .f32) (w : Vec F S128x128 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare a0 ∗ owns (c : Thread nD τ) arg2 fullShare a1 ∗ owns (c : Thread nD τ) arg3 fullShare x ∗ owns (c : Thread nD τ) arg4 fullShare w
            ∗ (∃ d, owns (c : Thread nD τ) arg5 fullShare d) ∗ (∃ d, owns (c : Thread nD τ) arg6 fullShare d)
            ∗ (iprop(owns (c : Thread nD τ) arg1 fullShare a0 ∗ owns (c : Thread nD τ) arg2 fullShare a1 ∗ owns (c : Thread nD τ) arg3 fullShare x ∗ owns (c : Thread nD τ) arg4 fullShare w
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gc_body i arg1 harg1 arg2 harg2 arg3 harg3 arg4 harg4 arg5 harg5 arg6 harg6) K } := by
  refine ⟨?_, ?_, fun E K => ?run⟩
  case run =>
    simp only [cc0__gc_body_eq_skeleton]; unfold cc0__gc_body_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- A LATER POINT (the condition fails). From the two adjacency blocks at contents a0, a1, the other two inputs at
    x, w, the scratch at contents y, the output buffer at anything, the body runs to: the inputs and the scratch as
    they were, the output buffer with the pieces L4 written. -/
noncomputable def runLater (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : ¬cond0 i)
    (a0 : Vec F S200x10000 .f32) (a1 : Vec F S200x10000 .f32) (x : Vec F S10000x128 .f32) (w : Vec F S128x128 .f32) (y : Vec F S10000x128 .f32) :
    { L4 : List (View.Piece (Elt F) S400x128 .f32) //
      ∀ (E : Set ℕ) (K : PUnit → sProp 𝕄),
        iprop(owns (c : Thread nD τ) arg1 fullShare a0 ∗ owns (c : Thread nD τ) arg2 fullShare a1 ∗ owns (c : Thread nD τ) arg3 fullShare x ∗ owns (c : Thread nD τ) arg4 fullShare w
            ∗ (∃ d, owns (c : Thread nD τ) arg5 fullShare d) ∗ owns (c : Thread nD τ) arg6 fullShare y
            ∗ (iprop(owns (c : Thread nD τ) arg1 fullShare a0 ∗ owns (c : Thread nD τ) arg2 fullShare a1 ∗ owns (c : Thread nD τ) arg3 fullShare x ∗ owns (c : Thread nD τ) arg4 fullShare w
                ∗ (∃ f, arg5.view.loc (c : Thread nD τ) ↦[arg5.view.set]{fullShare} arg5.view.writes (Elt F) f L4)
                ∗ owns (c : Thread nD τ) arg6 fullShare y) -∗ K ⟨⟩))
          ⊢ wp frame (wpE (defs₀ (F := F)) Variants.none c none) E (cc0__gc_body i arg1 harg1 arg2 harg2 arg3 harg3 arg4 harg4 arg5 harg5 arg6 harg6) K } := by
  refine ⟨?_, fun E K => ?run⟩
  case run =>
    simp only [cc0__gc_body_eq_skeleton]; unfold cc0__gc_body_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4
    obtain rfl := harg6.eq_unread hf6
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.KernelIdeal.Frame

end
-- ==== Proof.FrameIdeal.Body.lean ====
/-
  The proof data of the pipelined graph convolution and its body obligation.
  The pipeline has 25 grid points. Windows 0 and 1 read the even and the odd 200-row block of the adjacency matrix
  (rows 400t..400t+199 and 400t+200..400t+399 at point t), windows 2 and 3 the whole feature matrix and the whole
  weight matrix (fetched once), window 4 writes rows 400t..400t+399 of the result at every point. The scratch buffer
  holds Y = x·w from the first point on: the invariant between points is "the scratch holds Y" (before the first
  point: the scratch holds anything). After the body at point t each input's staging buffer holds its block, and the
  output's staging buffer holds the two pieces the body stored, (even block)·Y above (odd block)·Y.
-/
import proofs.«166500_g60559038874088_cont_9to1_m_10_19_alg».proof.Proof.FrameIdeal.Runs

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays, the blocks, the staging buffers -/

/-- Core `c`'s buffer contents when the region is entered: the launch memory (no host operation precedes the call). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, as the pipeline passes it to the body. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
/-- The scratch operand: a whole buffer of the kernel's own. -/
abbrev scM : Memref sig .tc .vmem S10000x128 .f32 := Memref.whole cc0_scratch0
/-- The views through which the scratch's and the output block's contents are stated. -/
abbrev VS : View sig .tc .vmem S10000x128 .f32 := scM.view
abbrev VO : View sig .tc .vmem S400x128 .f32 := (Memref.whole cc0_stg4_0 : Memref sig .tc .vmem S400x128 .f32).view

/-- The first grid point. -/
def t0 : Fin cfg0.N := ⟨0, by rw [show cfg0.N = 25 from N_0]; decide⟩

/-! ## The runs at a point, and what they leave -/

/-- The first-point run at point `t` (which is the first), on the point's staging buffers and blocks. -/
abbrev runA (c : Dev nD) (t : Fin cfg0.N) (h : t.val = 0) :=
  runFirst (F := F) c (grid0.coords t) (ms0_0 t) (hs0_0 t) (ms0_1 t) (hs0_1 t) (ms0_2 t) (hs0_2 t) (ms0_3 t) (hs0_3 t) (ms0_4 t) (hs0_4 t)
    scM (Memref.isWhole_whole _) ((hcond0 t).mpr h) (iblk m c 0 t) (iblk m c 1 t) (iblk m c 2 t) (iblk m c 3 t)

/-- What the kernel keeps in the scratch from the first point on: the pieces the first-point run stored, read back
    (the one piece covers the scratch: it is the product of the feature and weight matrices). -/
def Y (c : Dev nD) : Vec F S10000x128 .f32 :=
  VS.read (Elt F) (VS.writes (Elt F) VS.junk (runA m c t0 rfl).2.1)

/-- The later-point run at point `t`, the scratch at `Y`. -/
abbrev runB (c : Dev nD) (t : Fin cfg0.N) (h : ¬t.val = 0) :=
  runLater (F := F) c (grid0.coords t) (ms0_0 t) (hs0_0 t) (ms0_1 t) (hs0_1 t) (ms0_2 t) (hs0_2 t) (ms0_3 t) (hs0_3 t) (ms0_4 t) (hs0_4 t)
    scM (Memref.isWhole_whole _) (fun hc => h ((hcond0 t).mp hc)) (iblk m c 0 t) (iblk m c 1 t) (iblk m c 2 t) (iblk m c 3 t) (Y m c)

/-- What the body leaves in the output's staging buffer at point `t`: the stored pieces read back. -/
def out4 (c : Dev nD) (t : Fin cfg0.N) : Vec F S400x128 .f32 :=
  if h : t.val = 0 then VO.read (Elt F) (VO.writes (Elt F) VO.junk (runA m c t h).1)
  else VO.read (Elt F) (VO.writes (Elt F) VO.junk (runB m c t h).1)

theorem out4_first (c : Dev nD) (t : Fin cfg0.N) (h : t.val = 0) :
    out4 m c t = VO.read (Elt F) (VO.writes (Elt F) VO.junk (runA m c t h).1) := dif_pos h
theorem out4_later (c : Dev nD) (t : Fin cfg0.N) (h : ¬t.val = 0) :
    out4 m c t = VO.read (Elt F) (VO.writes (Elt F) VO.junk (runB m c t h).1) := dif_neg h

/-! ## The stored pieces cover their buffers -/

/-- The first-point run's pieces for the scratch tile it (one store of the whole shape). -/
theorem scoverFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : cond0 i) (a0 a1 : Vec F S200x10000 .f32) (x : Vec F S10000x128 .f32) (w : Vec F S128x128 .f32) (y : S10000x128.Idx) :
    ∃ pc ∈ (runFirst (F := F) c i arg1 harg1 arg2 harg2 arg3 harg3 arg4 harg4 arg5 harg5 arg6 harg6 hc0 a0 a1 x w).2.1, y ∈ pc.1.set :=
  View.cover_of_tiledL (runFirst (F := F) c i arg1 harg1 arg2 harg2 arg3 harg3 arg4 harg4 arg5 harg5 arg6 harg6 hc0 a0 a1 x w).2.1 S10000x128.size (by sl_kernel_rfl) y

/-- The first-point run's pieces for the output block tile it (two stores of 200 rows each). -/
theorem coverFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : cond0 i) (a0 a1 : Vec F S200x10000 .f32) (x : Vec F S10000x128 .f32) (w : Vec F S128x128 .f32) (y : S400x128.Idx) :
    ∃ pc ∈ (runFirst (F := F) c i arg1 harg1 arg2 harg2 arg3 harg3 arg4 harg4 arg5 harg5 arg6 harg6 hc0 a0 a1 x w).1, y ∈ pc.1.set :=
  View.cover_of_tiledL (runFirst (F := F) c i arg1 harg1 arg2 harg2 arg3 harg3 arg4 harg4 arg5 harg5 arg6 harg6 hc0 a0 a1 x w).1 S200x128.size (by sl_kernel_rfl) y

/-- The later-point run's pieces for the output block tile it. -/
theorem coverLater (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .f32) (harg6 : arg6.IsWhole)
    (hc0 : ¬cond0 i) (a0 a1 : Vec F S200x10000 .f32) (x : Vec F S10000x128 .f32) (w : Vec F S128x128 .f32) (ys : Vec F S10000x128 .f32) (y : S400x128.Idx) :
    ∃ pc ∈ (runLater (F := F) c i arg1 harg1 arg2 harg2 arg3 harg3 arg4 harg4 arg5 harg5 arg6 harg6 hc0 a0 a1 x w ys).1, y ∈ pc.1.set :=
  View.cover_of_tiledL (runLater (F := F) c i arg1 harg1 arg2 harg2 arg3 harg3 arg4 harg4 arg5 harg5 arg6 harg6 hc0 a0 a1 x w ys).1 S200x128.size (by sl_kernel_rfl) y

/-! ## The invariant between points -/

/-- Before the first point the scratch holds anything (what the launch hands the region); from then on it holds `Y`. -/
def PhiS (c : Dev nD) : (n : ℕ) → n ≤ cfg0.N → sProp 𝕄
  | 0, _ => iprop(∃ d, owns (c : Thread nD τ) scM fullShare d)
  | _ + 1, _ => owns (c : Thread nD τ) scM fullShare (Y m c)

theorem PhiS_zero (c : Dev nD) (n : ℕ) (h : n ≤ cfg0.N) (hz : n = 0) :
    PhiS m c n h = iprop(∃ d, owns (c : Thread nD τ) scM fullShare d) := by subst hz; rfl
theorem PhiS_pos (c : Dev nD) (n : ℕ) (h : n ≤ cfg0.N) (hz : n ≠ 0) :
    PhiS m c n h = owns (c : Thread nD τ) scM fullShare (Y m c) := by
  cases n with
  | zero => exact absurd rfl hz
  | succ n => rfl

/-- The scoped buffers that are no staging buffer, as the launch hands them over: the scratch at anything. -/
theorem scopedRest_scratch (c : Dev nD) :
    (Pipeline.scopedRest spec0 c : sProp 𝕄) = iprop(∃ d, owns (c : Thread nD τ) scM fullShare d) := by
  rw [scopedRest0_eq]; simp only [scM, owns_whole]; try rfl

/-! ## The proof data -/

/-- The arrays at their launch contents; after the body each input's buffer at its block and the output's at `out4`;
    the invariant `PhiS`; the adjacency matrix, read through two windows, held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The output's staging buffer, written back at every point, holds nothing the body may rely on. -/
theorem before0_4 (c : Dev nD) (t : Fin cfg0.N) (d) : (dats m 0 c).before 4 t d = d :=
  (dats m 0 c).before_out_reset 4 rfl t
    (by
      by_cases hz : t.val = 0
      · exact .inl hz
      · exact .inr ⟨hz, flush0_4 _⟩) d

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- No window is ever idle: each live buffer is left at `after`. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rfl

set_option maxHeartbeats 4000000 in
/-- The body at any point. The inputs' buffers hold their blocks; at the first point the scratch holds anything and the
    first-point run applies, leaving `Y` in it; at a later point the scratch holds `Y` and the later-point run
    applies, leaving it there; either way the output's buffer ends at the stored pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_eq, leaves_eq, leaves_eq, leaves_eq, leaves_eq, after0_0, after0_1, after0_2, after0_3, after0_4]
  by_cases hz : t.val = 0
  · obtain rfl : t = t0 := Fin.ext hz
    rw [PhiS_castSucc m c t0, PhiS_zero m c _ _ hz, out4_first m c t0 hz]
    iintro ⟨HS, Ho, ⟨%d0, H0⟩, ⟨%d1, H1⟩, ⟨%d2, H2⟩, ⟨%d3, H3⟩, H4⟩
    iapply ((runA m c t0 hz).2.2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _ _)
  · rw [PhiS_castSucc m c t, PhiS_pos m c _ _ hz, out4_later m c t hz]
    iintro ⟨HS, Ho, ⟨%d0, H0⟩, ⟨%d1, H1⟩, ⟨%d2, H2⟩, ⟨%d3, H3⟩, H4⟩
    iapply ((runB m c t hz).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.FrameIdeal.Launch.lean ====
/-
  The launch of the pipelined graph convolution and its frame.
  The adjacency matrix is handed to the kernel twice, as the array of window 0 (even 200-row blocks) and of window 1
  (odd ones). Both windows only read it, so its full ownership is dealt half to each; the other three arrays are
  held outright. With the body obligation this gives the run: every weakly fair execution terminates, nothing
  faults, and every windowed array ends at what the write-backs made of it. The three argument arrays are read
  only, so they end as they began: the frame.
-/
import proofs.«166500_g60559038874088_cont_9to1_m_10_19_alg».proof.Proof.FrameIdeal.Body
import Idealize.ShloMosaic.Lib.Pipeline.Launch
import Idealize.ShloMosaic.Lib.Pipeline.Kit

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The windowed arrays as whole-buffer holdings, each at the share the proof data names. -/
theorem arrays_whole (c : Dev nD) (G : (w : Fin cfg0.W) → Buf (Elt F) ((cfg0.win w).arr.view.loc (c : Thread nD τ))) :
    ((dats m 0 c).arrays G : sProp 𝕄)
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

/-- THE SPLIT. The four buffers behind the five windows' arrays, each whole at the full share, make the proof data's
    arrays at entry: the adjacency matrix's full share is the sum of its left and right halves, one for each of
    the two windows that read it. -/
theorem hsplit (c : Dev nD) :
    (Pipeline.arrBufs spec0 c (V m c) : sProp 𝕄) ⊢ (dats m 0 c).arrays ((dats m 0 c).arrAt · 0) := by
  rw [arrays_whole, bigSep_W0]
  unfold Pipeline.arrBufs
  rw [bigSep_eq_bigSepL_of_eq [main_arg1, main_arg0, main_arg2, main_v0] (by decide) (by decide)]
  show iprop((((c : Thread nD τ).loc main_arg1) ↦{fullShare} V m c main_arg1) ∗ (((c : Thread nD τ).loc main_arg0) ↦{fullShare} V m c main_arg0)
        ∗ (((c : Thread nD τ).loc main_arg2) ↦{fullShare} V m c main_arg2) ∗ (((c : Thread nD τ).loc main_v0) ↦{fullShare} V m c main_v0))
      ⊢ iprop((((c : Thread nD τ).loc main_arg1) ↦{fullShare.left} V m c main_arg1) ∗ (((c : Thread nD τ).loc main_arg1) ↦{fullShare.right} V m c main_arg1)
        ∗ (((c : Thread nD τ).loc main_arg0) ↦{fullShare} V m c main_arg0) ∗ (((c : Thread nD τ).loc main_arg2) ↦{fullShare} V m c main_arg2)
        ∗ (((c : Thread nD τ).loc main_v0) ↦{fullShare} V m c main_v0))
  have hs : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  refine (sep_mono hs .rfl).trans ?_
  iintro ⟨⟨Hl, Hr⟩, Hx, Hw, Ho⟩
  isplitl [Hl]; · iexact Hl
  isplitl [Hr]; · iexact Hr
  isplitl [Hx]; · iexact Hx
  isplitl [Hw]; · iexact Hw
  iexact Ho

/-- What the launch hands the region is the invariant before the first point: the scratch at anything. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest_scratch]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_scratch]
  iintro H; isplitr; · iempintro
  iexists _; iexact H

set_option backward.isDefEq.respectTransparency.types false in
/-- THE RUN. From any memory with zero counters every weakly fair execution of @main terminates, nothing faults, and every
    windowed array ends at what the library computes from the proof data. -/
theorem run_main : θ_run defs (onTc (τ := τ) (main (F := F))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- info: 'Cert.KernelIdeal.Frame.run_main' depends on axioms: [propext, Classical.choice, Quot.sound] -/
#guard_msgs in #print axioms run_main

/-- The three argument arrays are read only: after the run they hold what they held. -/
theorem final_arg1 (c : Dev nD) : (dats m 0 c).arrAt 0 cfg0.N = m ((c : Thread nD τ).loc main_arg1) :=
  ((dats (F := F) m 0 c).arrAt_in (0 : Fin 5) rfl _).trans (A_eq m c 0)
theorem final_arg0 (c : Dev nD) : (dats m 0 c).arrAt 2 cfg0.N = m ((c : Thread nD τ).loc main_arg0) :=
  ((dats (F := F) m 0 c).arrAt_in (2 : Fin 5) rfl _).trans (A_eq m c 2)
theorem final_arg2 (c : Dev nD) : (dats m 0 c).arrAt 3 cfg0.N = m ((c : Thread nD τ).loc main_arg2) :=
  ((dats (F := F) m 0 c).arrAt_in (3 : Fin 5) rfl _).trans (A_eq m c 3)

/-- THE RUN WITH ITS RESULT NAMED: the result array ends at what the 25 write-backs made of it, the arguments as they were. -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 4, (h c 2).trans (final_arg0 m c), (h c 0).trans (final_arg1 m c), (h c 3).trans (final_arg2 m c)⟩)
    (run_main m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Frame

end
-- ==== Proof.Claims.lean ====
/-
  The three frame claims and the idealization claim of the graph-convolution certificate.
  Each kernel program (at the word level and at the ideal level) runs to the end, faults nowhere and leaves its three
  argument arrays unchanged: the pipeline's launch with the body obligation discharged. The reference is a host program of
  two matrix products; its frame is its run with the result dropped. The idealization rewrote nothing, so it has
  nothing to preserve.
-/
import proofs.«166500_g60559038874088_cont_9to1_m_10_19_alg».proof.Defs
import proofs.«166500_g60559038874088_cont_9to1_m_10_19_alg».proof.Proof.Gen.Pre_finite_inputs
import proofs.«166500_g60559038874088_cont_9to1_m_10_19_alg».proof.Proof.Gen.ReferenceIdeal.Run
import proofs.«166500_g60559038874088_cont_9to1_m_10_19_alg».proof.Proof.FrameBits.Launch
import proofs.«166500_g60559038874088_cont_9to1_m_10_19_alg».proof.Proof.FrameIdeal.Launch

noncomputable section

namespace Cert.Proof.Claims

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.Spec.lean ====
import proofs.«166500_g60559038874088_cont_9to1_m_10_19_alg».proof.KernelIdeal
import Idealize.ShloMosaic.Lib.ValueIdx
import Idealize.ShloMosaic.PureOps.Ideal.Laws

/-!
# The value both programs compute, and the law that joins them

The arguments are three matrices of extended reals: `x` (10000 × 128), `adj` (10000 × 10000) and
`w` (128 × 128). The result is the 10000 × 128 matrix `adj · (x · w)`; its entry `(p, q)` is
`∑ k, adj[p,k] · (∑ j, x[k,j] · w[j,q])`. This is `G`.

The other arrangement of the same product, `(adj · x) · w`, has entry
`∑ j, (∑ k, adj[p,k] · x[k,j]) · w[j,q]`. The two are equal by distributing each product over the
inner sum and exchanging the two finite sums. Distributivity fails in the extended reals at
infinite entries (`(⊤ + ⊥) · c` against `⊤ · c + ⊥ · c`), so the law is proved for entries that are
real numbers: the real witnesses are chosen, the equation is proved in `ℝ`, and the coercion
`ℝ → EReal`, which commutes with products and finite sums, carries it over.
-/

noncomputable section

namespace Cert.Proof.Spec

open Idealize.ShloMosaic Idealize.ShloMosaic.ValueIdx Cert.KernelIdeal
open scoped BigOperators

/-- every entry is a real number -/
def IsFin {s : Shape} (v : s.Idx → EReal) : Prop := ∀ i, ∃ r : ℝ, v i = (r : EReal)

/-- adj·(x·w), entry by entry -/
def G (x : Vec Ideal S10000x128 .f32) (adj : Vec Ideal S10000x10000 .f32) (w : Vec Ideal S128x128 .f32) :
    Vec Ideal S10000x128 .f32 :=
  fun i => ∑ k : Fin 10000, adj (ix2 ⟨(i 0).val, (i 0).isLt⟩ k) *
    ∑ j : Fin 128, x (ix2 k j) * w (ix2 j ⟨(i 1).val, (i 1).isLt⟩)

/-- `G` at the entry in row `p` and column `q`. -/
theorem G_apply (x : Vec Ideal S10000x128 .f32) (adj : Vec Ideal S10000x10000 .f32) (w : Vec Ideal S128x128 .f32)
    (p : Fin 10000) (q : Fin 128) :
    G x adj w (ix2 p q) = ∑ k : Fin 10000, adj (ix2 p k) * ∑ j : Fin 128, x (ix2 k j) * w (ix2 j q) := rfl

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(a · X) · w = a · (X · w)` for a row `a`, a matrix `X` and a column `w` of real numbers:
    distribute both products over the inner sums and exchange the two sums. -/
theorem assoc_real {K J : Type*} [Fintype K] [Fintype J] (a : K → ℝ) (X : K → J → ℝ) (w : J → ℝ) :
    ∑ j, (∑ k, a k * X k j) * w j = ∑ k, a k * ∑ j, X k j * w j := by
  simp only [Finset.sum_mul, Finset.mul_sum]
  rw [Finset.sum_comm]
  exact Finset.sum_congr rfl fun k _ => Finset.sum_congr rfl fun j _ => mul_assoc _ _ _

/-- The same law for extended reals every one of which is a real number. -/
theorem assoc_ereal {K J : Type*} [Fintype K] [Fintype J] (a : K → EReal) (X : K → J → EReal) (w : J → EReal)
    (ha : ∀ k, ∃ r : ℝ, a k = (r : EReal)) (hX : ∀ k j, ∃ r : ℝ, X k j = (r : EReal))
    (hw : ∀ j, ∃ r : ℝ, w j = (r : EReal)) :
    ∑ j, (∑ k, a k * X k j) * w j = ∑ k, a k * ∑ j, X k j * w j := by
  choose a' ha using ha
  choose X' hX using hX
  choose w' hw using hw
  obtain rfl : a = fun k => (a' k : EReal) := funext ha
  obtain rfl : X = fun k j => (X' k j : EReal) := funext fun k => funext (hX k)
  obtain rfl : w = fun j => (w' j : EReal) := funext hw
  simp only [← EReal.coe_mul, ← coe_sum]
  exact congrArg (fun r : ℝ => (r : EReal)) (assoc_real a' X' w')

/-- the re-association, for finite entries -/
theorem assoc_of_fin (x : Vec Ideal S10000x128 .f32) (adj : Vec Ideal S10000x10000 .f32) (w : Vec Ideal S128x128 .f32)
    (hx : IsFin x) (ha : IsFin adj) (hw : IsFin w) (p : Fin 10000) (q : Fin 128) :
    ∑ j : Fin 128, (∑ k : Fin 10000, adj (ix2 p k) * x (ix2 k j)) * w (ix2 j q)
      = ∑ k : Fin 10000, adj (ix2 p k) * ∑ j : Fin 128, x (ix2 k j) * w (ix2 j q) :=
  assoc_ereal (fun k => adj (ix2 p k)) (fun k j => x (ix2 k j)) (fun j => w (ix2 j q))
    (fun _ => ha _) (fun _ _ => hx _) (fun _ => hw _)

end Cert.Proof.Spec

end
-- ==== Proof.RefValue.lean ====
import proofs.«166500_g60559038874088_cont_9to1_m_10_19_alg».proof.Proof.Spec
import proofs.«166500_g60559038874088_cont_9to1_m_10_19_alg».proof.Proof.Gen.ReferenceIdeal.Read

/-!
# The reference's value is `adj · (x · w)` when the entries are finite

The reference multiplies `adj` by `x` first and the result by `w`: its entry in row `p` and column
`q` is `∑ j, (∑ k, adj[p,k] · x[k,j]) · w[j,q]`. The index functions of its two products send
`(p, q)` and the contracted coordinate to `(p, j)`, `(j, q)` for the outer product and to `(p, k)`,
`(k, j)` for the inner one. For entries that are real numbers the re-association law turns this
double sum into `G`'s, `∑ k, adj[p,k] · (∑ j, x[k,j] · w[j,q])`.
-/

noncomputable section

namespace Cert.Proof.RefValue

open Idealize.ShloMosaic Idealize.ShloMosaic.ValueIdx Cert.ReferenceIdeal
open scoped BigOperators

/-- The outer product reads its left operand at `(p, j)`. -/
theorem lidx1_eq (p : Fin 10000) (q : Fin 128) (j : Fin 128) : Read.lidx_main_v1 (ix2 p q) j = ix2 p j :=
  funext fun a => Fin.ext (by match a with | ⟨0, _⟩ => rfl | ⟨1, _⟩ => rfl)
/-- The outer product reads its right operand at `(j, q)`. -/
theorem ridx1_eq (p : Fin 10000) (q : Fin 128) (j : Fin 128) : Read.ridx_main_v1 (ix2 p q) j = ix2 j q :=
  funext fun a => Fin.ext (by match a with | ⟨0, _⟩ => rfl | ⟨1, _⟩ => rfl)
/-- The inner product reads its left operand at `(p, k)`. -/
theorem lidx0_eq (p : Fin 10000) (j : Fin 128) (k : Fin 10000) : Read.lidx_main_v0 (ix2 p j) k = ix2 p k :=
  funext fun a => Fin.ext (by match a with | ⟨0, _⟩ => rfl | ⟨1, _⟩ => rfl)
/-- The inner product reads its right operand at `(k, j)`. -/
theorem ridx0_eq (p : Fin 10000) (j : Fin 128) (k : Fin 10000) : Read.ridx_main_v0 (ix2 p j) k = ix2 k j :=
  funext fun a => Fin.ext (by match a with | ⟨0, _⟩ => rfl | ⟨1, _⟩ => rfl)

/-- The reference's result at row `p` and column `q`, as the double sum `(adj · x) · w`. -/
theorem ref_apply (x : Vec Ideal S10000x128 .f32) (adj : Vec Ideal S10000x10000 .f32) (w : Vec Ideal S128x128 .f32)
    (p : Fin 10000) (q : Fin 128) :
    Read.val_main_v1 (F := Ideal) x adj w (ix2 p q)
      = ∑ j : Fin 128, (∑ k : Fin 10000, adj (ix2 p k) * x (ix2 k j)) * w (ix2 j q) := by
  rw [Read.val_main_v1_apply]
  refine Finset.sum_congr rfl fun j _ => ?_
  rw [lidx1_eq, ridx1_eq, Read.val_main_v0_apply]
  refine congrArg (· * w (ix2 j q)) (Finset.sum_congr rfl fun k _ => ?_)
  rw [lidx0_eq, ridx0_eq]

/-- For real entries the reference's value is `G`. -/
theorem ref_eq_G (x : Vec Ideal S10000x128 .f32) (adj : Vec Ideal S10000x10000 .f32) (w : Vec Ideal S128x128 .f32)
    (hx : Spec.IsFin x) (ha : Spec.IsFin adj) (hw : Spec.IsFin w) :
    Cert.ReferenceIdeal.Read.val_main_v1 (F := Ideal) x adj w = Spec.G x adj w := by
  funext i
  obtain ⟨p, q, rfl⟩ : ∃ (p : Fin 10000) (q : Fin 128), i = ix2 p q := ⟨i 0, i 1, eq_ix2 i⟩
  rw [ref_apply, Spec.G_apply]
  exact Spec.assoc_of_fin x adj w hx ha hw p q

end Cert.Proof.RefValue

end
-- ==== Proof.Finite.lean ====
import proofs.«166500_g60559038874088_cont_9to1_m_10_19_alg».proof.Proof.Spec
import proofs.«166500_g60559038874088_cont_9to1_m_10_19_alg».proof.Pre_finite_inputs
import Idealize.ShloMosaic.Lib.ReduceAll

/-!
# The precondition makes every entry a real number

The precondition is the conjunction, over the three argument matrices, of "every entry `v` has
`|v| < +∞`": each conjunct compares `max v (-v)` with the word of `+∞` entry by entry and folds the
answers by `and` from `1` into a single word; the three words are joined by `and`, and the claim
is that the result is `1`. A conjunction that is `1` has both sides `1`; a fold by `and` that is
`1` met only `1`s; and an extended real whose absolute value is below `⊤` is neither `⊤` nor `⊥`,
so it is a real number.
-/

noncomputable section

namespace Cert.Proof.Finite

open Idealize.ShloMosaic Idealize.ShloMosaic.ValueIdx
open scoped BigOperators

/-- The scalar shape has one index. -/
instance : Subsingleton Cert.Pre_finite_inputs.S_.Idx := ⟨fun a b => funext fun d => d.elim0⟩

/-- An extended real whose absolute value `max v (-v)` compares below the word of `+∞` is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = (⊤ : EReal) := by simp [Ideal.ofBits, Ideal.ieee]
  rw [htop] at h
  unfold Ideal.cmp at h
  induction v using EReal.rec with
  | bot => simp at h
  | coe r => exact ⟨r, rfl⟩
  | top => simp at h

/-- One conjunct of the precondition, for a matrix of any shape: if the fold by `and` of the entrywise
    comparisons `|v| < +∞` is `1`, every entry of `v` is a real number. -/
theorem isFin_of_all {s : Shape} (v : FVec Ideal s .f32) (c : FVec Ideal s .f32)
    (hc : ∀ i, c i = Ideal.ofBits .f32 0x7F800000#32)
    (h : ∀ i, cmpf .olt (Host.absf v) c i = 1#1) : Spec.IsFin v := fun i => by
  have hi := h i
  have e : cmpf .olt (Host.absf v) c i = Ideal.cmp .olt (max (v i) (-(v i))) (c i) := rfl
  rw [e, hc i] at hi
  exact real_of_abs_lt_inf (v i) hi

/-- The precondition, claimed to be `1`, makes every entry of the three matrices a real number. -/
theorem fin_of_pre (x : FVec Ideal Cert.Pre_finite_inputs.S10000x128 .f32) (adj : FVec Ideal Cert.Pre_finite_inputs.S10000x10000 .f32)
    (w : FVec Ideal Cert.Pre_finite_inputs.S128x128 .f32) [Cert.Pre_finite_inputs.Facts]
    (h : Cert.Pre_finite_inputs.fn (F := Ideal) x adj w = fun _ => 1#1) :
    Spec.IsFin x ∧ Spec.IsFin adj ∧ Spec.IsFin w := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨isFin_of_all x _ (fun _ => rfl) (Host.reduce_andi_all _ _ _ _ _ h1),
    isFin_of_all adj _ (fun _ => rfl) (Host.reduce_andi_all _ _ _ _ _ h2),
    isFin_of_all w _ (fun _ => rfl) (Host.reduce_andi_all _ _ _ _ _ h3)⟩

end Cert.Proof.Finite

end
-- ==== Proof.Payloads.lean ====
import proofs.«166500_g60559038874088_cont_9to1_m_10_19_alg».proof.Proof.Spec
import proofs.«166500_g60559038874088_cont_9to1_m_10_19_alg».proof.Proof.Gen.KernelIdeal.Skeleton
import Idealize.ShloMosaic.Lib.Pipeline.Value

/-!
# The kernel body's three products, entry by entry

The body holds three matrix products, each accumulated into a zero matrix:

* `Y = x · w`, a 10000 × 128 matrix times a 128 × 128 matrix (followed by a reshape to its own
  shape, which is the identity);
* twice, a 200 × 10000 block of rows `a` times the 10000 × 128 matrix `Y`.

Read in the extended reals, a product into a zero accumulator is, at row `r` and column `q`, the
finite sum over the contracted coordinate `k` of `l[r,k] · rr[k,q]`. The product's own index
functions send the result index `(r, q)` and the contracted index `k` to `(r, k)` in the left
operand and `(k, q)` in the right operand; the sum over the one-axis contraction index set is
re-indexed over `Fin K`.
-/

noncomputable section

namespace Cert.Proof.Payloads

open Idealize.ShloMosaic Idealize.ShloMosaic.ValueIdx Cert.KernelIdeal
open scoped BigOperators

/-! ### The product of a 10000 × 128 matrix and a 128 × 128 matrix -/

/-- The left operand's row is the result's row. -/
theorem dotXW_lhs_0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contracted coordinate. -/
theorem dotXW_lhs_1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
/-- The right operand's row is the contracted coordinate. -/
theorem dotXW_rhs_0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
/-- The right operand's column is the result's column. -/
theorem dotXW_rhs_1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, at row `r` and column `q`: the sum over the contracted
    coordinate of the left operand's row `r` times the right operand's column `q`. -/
theorem dotXW_apply (l : FVec Ideal S10000x128 .f32) (rr : FVec Ideal S128x128 .f32) (r : Fin 10000) (q : Fin 128) :
    matmul (F := Ideal) (φ₁ := .f32) (φ₂ := .f32) dot_S10000x128_S128x128_S10000x128_1_0_0_1_n_n none l rr (constant S10000x128 .f32 0x00000000#32) (ix2 r q)
      = ∑ k : Fin 128, l (ix2 r k) * rr (ix2 k q) := by
  refine (Ideal.matmul_constant_zero_apply dot_S10000x128_S128x128_S10000x128_1_0_0_1_n_n none l rr (ix2 r q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact dotXW_lhs_0 _ _
    | ⟨1, _⟩ => exact (dotXW_lhs_1 _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (dotXW_rhs_0 _ _).trans hk
    | ⟨1, _⟩ => exact dotXW_rhs_1 _ _)
  rw [el, er]

/-! ### The product of a 200 × 10000 block of rows and a 10000 × 128 matrix -/

/-- The left operand's row is the result's row. -/
theorem dotAY_lhs_0 (i : S200x128.Idx) (c : dot_S200x10000_S10000x128_S200x128_1_0_0_1_n_n.contr.Idx) :
    (dot_S200x10000_S10000x128_S200x128_1_0_0_1_n_n.lhsIdx i c 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column is the contracted coordinate. -/
theorem dotAY_lhs_1 (i : S200x128.Idx) (c : dot_S200x10000_S10000x128_S200x128_1_0_0_1_n_n.contr.Idx) :
    (dot_S200x10000_S10000x128_S200x128_1_0_0_1_n_n.lhsIdx i c 1).val = (c ⟨0, by decide⟩).val :=
  dot_S200x10000_S10000x128_S200x128_1_0_0_1_n_n.lhsIdx_val_of_single rfl i c
/-- The right operand's row is the contracted coordinate. -/
theorem dotAY_rhs_0 (i : S200x128.Idx) (c : dot_S200x10000_S10000x128_S200x128_1_0_0_1_n_n.contr.Idx) :
    (dot_S200x10000_S10000x128_S200x128_1_0_0_1_n_n.rhsIdx i c 0).val = (c ⟨0, by decide⟩).val :=
  dot_S200x10000_S10000x128_S200x128_1_0_0_1_n_n.rhsIdx_val_of_single rfl i c
/-- The right operand's column is the result's column. -/
theorem dotAY_rhs_1 (i : S200x128.Idx) (c : dot_S200x10000_S10000x128_S200x128_1_0_0_1_n_n.contr.Idx) :
    (dot_S200x10000_S10000x128_S200x128_1_0_0_1_n_n.rhsIdx i c 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into the zero accumulator, at row `r` and column `q`: the sum over the contracted
    coordinate of the left operand's row `r` times the right operand's column `q`. -/
theorem dotAY_apply (l : FVec Ideal S200x10000 .f32) (rr : FVec Ideal S10000x128 .f32) (r : Fin 200) (q : Fin 128) :
    matmul (F := Ideal) (φ₁ := .f32) (φ₂ := .f32) dot_S200x10000_S10000x128_S200x128_1_0_0_1_n_n none l rr (constant S200x128 .f32 0x00000000#32) (ix2 r q)
      = ∑ k : Fin 10000, l (ix2 r k) * rr (ix2 k q) := by
  refine (Ideal.matmul_constant_zero_apply dot_S200x10000_S10000x128_S200x128_1_0_0_1_n_n none l rr (ix2 r q)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r q) ((contrEquiv1 dot_S200x10000_S10000x128_S200x128_1_0_0_1_n_n 10000 rfl rfl).symm k) = ix2 r k := funext fun a => Fin.ext (by
    match a with
    | ⟨0, _⟩ => exact dotAY_lhs_0 _ _
    | ⟨1, _⟩ => exact (dotAY_lhs_1 _ _).trans hk)
  have er : dot_S200x10000_S10000x128_S200x128_1_0_0_1_n_n.rhsIdx (ix2 r q) ((contrEquiv1 dot_S200x10000_S10000x128_S200x128_1_0_0_1_n_n 10000 rfl rfl).symm k) = ix2 k q := funext fun a => Fin.ext (by
    match a with
    | ⟨0, _⟩ => exact (dotAY_rhs_0 _ _).trans hk
    | ⟨1, _⟩ => exact dotAY_rhs_1 _ _)
  rw [el, er]

/-! ### The three payloads -/

/-- The first payload is `x · w`: the reshape to the same shape changes nothing. -/
theorem pay1_apply (x : Vec Ideal S10000x128 .f32) (w : Vec Ideal S128x128 .f32) (k : Fin 10000) (q : Fin 128) :
    Cert.KernelIdeal.Gen.k0_pay1 (F := Ideal) x w (ix2 k q) = ∑ j : Fin 128, x (ix2 k j) * w (ix2 j q) := by
  unfold Cert.KernelIdeal.Gen.k0_pay1
  rw [shapeCast_self]
  exact dotXW_apply x w k q

/-- The second payload is a block of rows `a` times `y`. -/
theorem pay2_apply (a : Vec Ideal S200x10000 .f32) (y : Vec Ideal S10000x128 .f32) (r : Fin 200) (q : Fin 128) :
    Cert.KernelIdeal.Gen.k0_pay2 (F := Ideal) a y (ix2 r q) = ∑ k : Fin 10000, a (ix2 r k) * y (ix2 k q) := by
  unfold Cert.KernelIdeal.Gen.k0_pay2
  exact dotAY_apply a y r q

/-- The third payload is the same product for the second block of rows. -/
theorem pay3_apply (a : Vec Ideal S200x10000 .f32) (y : Vec Ideal S10000x128 .f32) (r : Fin 200) (q : Fin 128) :
    Cert.KernelIdeal.Gen.k0_pay3 (F := Ideal) a y (ix2 r q) = ∑ k : Fin 10000, a (ix2 r k) * y (ix2 k q) := by
  unfold Cert.KernelIdeal.Gen.k0_pay3
  exact dotAY_apply a y r q

end Cert.Proof.Payloads

end
-- ==== Proof.KernelValue.lean ====
import proofs.«166500_g60559038874088_cont_9to1_m_10_19_alg».proof.Proof.FrameIdeal.Body
import proofs.«166500_g60559038874088_cont_9to1_m_10_19_alg».proof.Proof.Spec
import proofs.«166500_g60559038874088_cont_9to1_m_10_19_alg».proof.Proof.Payloads
import Idealize.ShloMosaic.Lib.Pipeline.Value
import Idealize.ShloMosaic.Lib.Tactic

/-!
# The kernel's result array is `adj · (x · w)`

The pipeline has 25 grid points. At point `t` the body multiplies rows `400 t .. 400 t + 199` and rows
`400 t + 200 .. 400 t + 399` of the adjacency matrix by the matrix `Y` held in the scratch buffer, and
stores the two 200 × 128 products above one another in the output block, which is written back to rows
`400 t .. 400 t + 399` of the result. `Y` is the product `x · w` of the whole feature matrix and the
whole weight matrix, stored at the first point and kept since.

So entry `(r, q)` of the block at point `t` is `∑ k, adj[400 t + r, k] · (∑ j, x[k, j] · w[j, q])`: entry
`(400 t + r, q)` of `adj · (x · w)`. The 25 blocks tile the 10000 rows, so the array ends holding
`adj · (x · w)`. No finiteness of the entries is needed on this side: the kernel computes the
products in this very arrangement.
-/

-- membership in a rectangle of these extents recurses once per coordinate of the long axes
set_option maxRecDepth 16384

noncomputable section

namespace Cert.Proof.KernelValue

open Cert.KernelIdeal Cert.KernelIdeal.Gen Cert.KernelIdeal.Frame Idealize.ShloMosaic Idealize.ShloMosaic.TcCoe Idealize.ShloMosaic.ValueIdx Idealize.SL.Sem Idealize.ShloMosaic.Pipeline
open Idealize.ShloMosaic.Tactic
open scoped BigOperators

section AnyFormat

variable {F : FTy → Type} [FloatOps F]
variable (m : (ℓ : Loc nD τ sig) → Buf (Elt F) ℓ)

/-- The zero offsets, however they are spelt. -/
theorem hz : (![0, 0] : Fin 2 → Nat) = fun _ => 0 := funext fun a => by fin_cases a <;> rfl

/-- The scratch holds the product of the feature matrix and the weight matrix. -/
theorem Y_eq (c : Dev nD) : Y (F := F) m c = k0_pay1 (iblk m c 2 t0) (iblk m c 3 t0) := by
  unfold Y
  rw [View.read_writes_junk_eq_canon]
  unfold runA runFirst
  dsimp only
  sl_unfold_words
  rw [View.canon_unit_zero (S := S10000x128) hz]
  simp only [View.readAt_eq_ld, Memref.IsWhole.read_unread, View.ld_unit_zero (S := S10000x128) hz, View.ld_unit_zero (S := S128x128) hz]

/-- At a later point the output block is the two stored pieces: the odd adjacency block times the scratch's
    contents `Y` in rows 200..399, the even block times `Y` in rows 0..199. -/
theorem out4_later_eq (c : Dev nD) (t : Fin cfg0.N) (h : ¬ t.val = 0) :
    out4 (F := F) m c t = View.canon
      [⟨Rect.unit ![200, 0] ![200, 128] inb_S400x128_S200x128_200_0, k0_pay3 (iblk m c 1 t) (Y m c)⟩,
       ⟨Rect.unit ![0, 0] ![200, 128] inb_S400x128_S200x128_0_0, k0_pay2 (iblk m c 0 t) (Y m c)⟩] := by
  rw [out4_later m c t h, View.read_writes_junk_eq_canon]
  unfold runB runLater
  dsimp only
  have e : View.read (Elt F) (View.whole cc0_scratch0) ((Memref.isWhole_whole cc0_scratch0).unread (Y m c)) = Y m c :=
    Memref.IsWhole.read_unread (m := scM) (Memref.isWhole_whole _) (Y m c)
  simp only [View.readAt_eq_ld, Memref.IsWhole.read_unread, e, View.ld_unit_zero (S := S200x10000) hz, View.ld_unit_zero (S := S10000x128) hz]

/-- At the first point the same two pieces, their scratch operand the product just stored there and read back. -/
theorem out4_first_eq (c : Dev nD) (t : Fin cfg0.N) (h : t.val = 0) :
    out4 (F := F) m c t = View.canon
      [⟨Rect.unit ![200, 0] ![200, 128] inb_S400x128_S200x128_200_0, k0_pay3 (iblk m c 1 t) (k0_pay1 (iblk m c 2 t) (iblk m c 3 t))⟩,
       ⟨Rect.unit ![0, 0] ![200, 128] inb_S400x128_S200x128_0_0, k0_pay2 (iblk m c 0 t) (k0_pay1 (iblk m c 2 t) (iblk m c 3 t))⟩] := by
  rw [out4_first m c t h, View.read_writes_junk_eq_canon]
  unfold runA runFirst
  dsimp only
  sl_unfold_words
  rw [View.readCov_unit_zero (S := S10000x128) _ hz]
  simp only [View.readAt_eq_ld, Memref.IsWhole.read_unread, View.ld_unit_zero (S := S200x10000) hz, View.ld_unit_zero (S := S10000x128) hz, View.ld_unit_zero (S := S128x128) hz]

/-! ## The index maps, and a block's entries in its array -/

/-- The printed index maps, decided over the 25 grid points: at point `t` the two adjacency windows
    are on row blocks `2t` and `2t + 1` (of 200 rows), the feature and weight windows on their whole
    arrays, the output window on row block `t` (of 400 rows); no window moves along the columns. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the first adjacency window's block at point `t` is row `400 t + r` of the adjacency matrix. -/
theorem iblk0_apply (c : Dev nD) (t : Fin cfg0.N) (r : Fin 200) (k : Fin 10000) (p : Fin 10000)
    (hp : p.val = 400 * t.val + r.val) :
    (iblk (F := F) m c 0 t : Vec F S200x10000 .f32) (ix2 r k) = m ((c : Thread nD τ).loc main_arg1) (ix2 p k) := by
  unfold iblk
  rw [View.read_apply]
  show m ((c : Thread nD τ).loc main_arg1) _ = m ((c : Thread nD τ).loc main_arg1) _
  refine congrArg _ ?_
  funext a; apply Fin.ext
  obtain ⟨e0, e1, -⟩ := idx_facts t
  match a with
  | ⟨0, _⟩ => show win0_0.index t (0 : Fin 2) * 200 + 1 * r.val = p.val; omega
  | ⟨1, _⟩ => show win0_0.index t (1 : Fin 2) * 10000 + 1 * k.val = k.val; omega

/-- Row `r` of the second adjacency window's block at point `t` is row `400 t + 200 + r`. -/
theorem iblk1_apply (c : Dev nD) (t : Fin cfg0.N) (r : Fin 200) (k : Fin 10000) (p : Fin 10000)
    (hp : p.val = 400 * t.val + 200 + r.val) :
    (iblk (F := F) m c 1 t : Vec F S200x10000 .f32) (ix2 r k) = m ((c : Thread nD τ).loc main_arg1) (ix2 p k) := by
  unfold iblk
  rw [View.read_apply]
  show m ((c : Thread nD τ).loc main_arg1) _ = m ((c : Thread nD τ).loc main_arg1) _
  refine congrArg _ ?_
  funext a; apply Fin.ext
  obtain ⟨-, -, e0, e1, -⟩ := idx_facts t
  match a with
  | ⟨0, _⟩ => show win0_1.index t (0 : Fin 2) * 200 + 1 * r.val = p.val; omega
  | ⟨1, _⟩ => show win0_1.index t (1 : Fin 2) * 10000 + 1 * k.val = k.val; omega

/-- The feature window's block is the whole feature matrix, at every point. -/
theorem iblk2_eq (c : Dev nD) (t : Fin cfg0.N) :
    (iblk (F := F) m c 2 t : Vec F S10000x128 .f32) = m ((c : Thread nD τ).loc main_arg0) := by
  funext j
  unfold iblk
  rw [View.read_apply]
  show m ((c : Thread nD τ).loc main_arg0) _ = m ((c : Thread nD τ).loc main_arg0) j
  refine congrArg _ ?_
  funext a; apply Fin.ext
  obtain ⟨-, -, -, -, e0, e1, -⟩ := idx_facts t
  match a with
  | ⟨0, _⟩ => show win0_2.index t (0 : Fin 2) * 10000 + 1 * (j 0).val = (j 0).val; omega
  | ⟨1, _⟩ => show win0_2.index t (1 : Fin 2) * 128 + 1 * (j 1).val = (j 1).val; omega

/-- The weight window's block is the whole weight matrix, at every point. -/
theorem iblk3_eq (c : Dev nD) (t : Fin cfg0.N) :
    (iblk (F := F) m c 3 t : Vec F S128x128 .f32) = m ((c : Thread nD τ).loc main_arg2) := by
  funext j
  unfold iblk
  rw [View.read_apply]
  show m ((c : Thread nD τ).loc main_arg2) _ = m ((c : Thread nD τ).loc main_arg2) j
  refine congrArg _ ?_
  funext a; apply Fin.ext
  obtain ⟨-, -, -, -, -, -, e0, e1, -⟩ := idx_facts t
  match a with
  | ⟨0, _⟩ => show win0_3.index t (0 : Fin 2) * 128 + 1 * (j 0).val = (j 0).val; omega
  | ⟨1, _⟩ => show win0_3.index t (1 : Fin 2) * 128 + 1 * (j 1).val = (j 1).val; omega

end AnyFormat

/-! ## The output block, entry by entry -/

section AtIdeal

/-- The two stored pieces of the output block, read back at row `r` and column `q`: rows 0..199 come from
    the second piece (the even adjacency block's product), rows 200..399 from the first (the odd block's). -/
theorem canon_two_apply (a0 a1 : Vec Ideal S200x10000 .f32) (ys : Vec Ideal S10000x128 .f32)
    (r : Fin 400) (q : Fin 128) (v : EReal)
    (h0 : ∀ r' : Fin 200, r.val = r'.val → k0_pay2 (F := Ideal) a0 ys (ix2 r' q) = v)
    (h1 : ∀ r' : Fin 200, r.val = 200 + r'.val → k0_pay3 (F := Ideal) a1 ys (ix2 r' q) = v) :
    View.canon (Val := Elt Ideal) (s := S400x128) (e := .f32)
      [⟨Rect.unit ![200, 0] ![200, 128] inb_S400x128_S200x128_200_0, k0_pay3 (F := Ideal) a1 ys⟩,
       ⟨Rect.unit ![0, 0] ![200, 128] inb_S400x128_S200x128_0_0, k0_pay2 (F := Ideal) a0 ys⟩] (ix2 r q) = v := by
  by_cases hr : r.val < 200
  · rw [View.canon_cons_of_not_mem _ _ (by
      rw [Rect.mem_set_unit]; intro hm
      have := (hm 0).1
      have h' : 200 ≤ r.val := this
      omega)]
    have e : (ix2 r q : S400x128.Idx)
        = (Rect.unit (s := S400x128) ![0, 0] ![200, 128] inb_S400x128_S200x128_0_0).emb (ix2 (⟨r.val, hr⟩ : Fin 200) q) := by
      funext a; apply Fin.ext
      match a with
      | ⟨0, _⟩ => show r.val = 0 + 1 * r.val; omega
      | ⟨1, _⟩ => show q.val = 0 + 1 * q.val; omega
    rw [e, View.canon_cons_emb]
    exact h0 ⟨r.val, hr⟩ rfl
  · have hr4 : r.val < 400 := r.isLt
    have e : (ix2 r q : S400x128.Idx)
        = (Rect.unit (s := S400x128) ![200, 0] ![200, 128] inb_S400x128_S200x128_200_0).emb (ix2 (⟨r.val - 200, by omega⟩ : Fin 200) q) := by
      funext a; apply Fin.ext
      match a with
      | ⟨0, _⟩ => show r.val = 200 + 1 * (r.val - 200); omega
      | ⟨1, _⟩ => show q.val = 0 + 1 * q.val; omega
    rw [e, View.canon_cons_emb]
    exact h1 ⟨r.val - 200, by omega⟩ (by show r.val = 200 + (r.val - 200); omega)

/-- The output block at point `T`, for staging buffers that hold what the windows fetch: row `r` of the
    block is row `400 T + r` of `adj · (x · w)`. -/
theorem block_entry (X : Vec Ideal S10000x128 .f32) (A : Vec Ideal S10000x10000 .f32) (W : Vec Ideal S128x128 .f32)
    (a0 a1 : Vec Ideal S200x10000 .f32) (xb : Vec Ideal S10000x128 .f32) (wb : Vec Ideal S128x128 .f32) (T : ℕ)
    (hx : xb = X) (hw : wb = W)
    (h0 : ∀ (r' : Fin 200) (k p : Fin 10000), p.val = 400 * T + r'.val → a0 (ix2 r' k) = A (ix2 p k))
    (h1 : ∀ (r' : Fin 200) (k p : Fin 10000), p.val = 400 * T + 200 + r'.val → a1 (ix2 r' k) = A (ix2 p k))
    (r : Fin 400) (q : Fin 128) (p : Fin 10000) (hp : p.val = 400 * T + r.val) :
    View.canon (Val := Elt Ideal) (s := S400x128) (e := .f32)
      [⟨Rect.unit ![200, 0] ![200, 128] inb_S400x128_S200x128_200_0, k0_pay3 (F := Ideal) a1 (k0_pay1 (F := Ideal) xb wb)⟩,
       ⟨Rect.unit ![0, 0] ![200, 128] inb_S400x128_S200x128_0_0, k0_pay2 (F := Ideal) a0 (k0_pay1 (F := Ideal) xb wb)⟩] (ix2 r q)
      = Spec.G X A W (ix2 p q) := by
  subst hx hw
  rw [Spec.G_apply]
  refine canon_two_apply a0 a1 _ r q _ (fun r' hr' => ?_) (fun r' hr' => ?_)
  · rw [Payloads.pay2_apply]
    refine Finset.sum_congr rfl fun k _ => ?_
    rw [Payloads.pay1_apply, h0 r' k p (by omega)]
  · rw [Payloads.pay3_apply]
    refine Finset.sum_congr rfl fun k _ => ?_
    rw [Payloads.pay1_apply, h1 r' k p (by omega)]

end AtIdeal

/-! ## From the blocks to the array -/

section Final

variable (m : (ℓ : Loc nD τ sig) → Buf (Elt Ideal) ℓ)

/-- What the body leaves in the output's staging buffer at point `t`: row `r` is row `400 t + r` of
    `adj · (x · w)`. At the first point the scratch operand is the product just stored; at a later
    point it is the product the scratch has held since the first. -/
theorem out4_apply (c : Dev nD) (t : Fin cfg0.N) (r : Fin 400) (q : Fin 128) (p : Fin 10000)
    (hp : p.val = 400 * t.val + r.val) :
    out4 (F := Ideal) m c t (ix2 r q)
      = Spec.G (m ((c : Thread nD τ).loc main_arg0)) (m ((c : Thread nD τ).loc main_arg1)) (m ((c : Thread nD τ).loc main_arg2)) (ix2 p q) := by
  by_cases h : t.val = 0
  · rw [out4_first_eq m c t h]
    exact block_entry _ _ _ (iblk m c 0 t) (iblk m c 1 t) (iblk m c 2 t) (iblk m c 3 t) t.val
      (iblk2_eq m c t) (iblk3_eq m c t) (fun r' k p' hp' => iblk0_apply m c t r' k p' hp')
      (fun r' k p' hp' => iblk1_apply m c t r' k p' hp') r q p hp
  · rw [out4_later_eq m c t h, Y_eq]
    exact block_entry _ _ _ (iblk m c 0 t) (iblk m c 1 t) (iblk m c 2 t0) (iblk m c 3 t0) t.val
      (iblk2_eq m c t0) (iblk3_eq m c t0) (fun r' k p' hp' => iblk0_apply m c t r' k p' hp')
      (fun r' k p' hp' => iblk1_apply m c t r' k p' hp') r q p hp

/-- What point `t` writes back is block `t` of `adj · (x · w)`. -/
theorem flushed4_eq (c : Dev nD) (t : Fin cfg0.N) :
    (dats (F := Ideal) m 0 c).flushed 4 t = ((cfg0.win 4).blk t).view.read (Elt Ideal)
      (Spec.G (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  funext y
  obtain ⟨r, q, rfl⟩ : ∃ (r : Fin 400) (q : Fin 128), y = ix2 r q := ⟨y 0, y 1, eq_ix2 y⟩
  rw [View.read_apply]
  obtain ⟨-, -, -, -, -, -, -, -, e0, e1⟩ := idx_facts t
  have hN : cfg0.N = 25 := N_0
  have ht : t.val < 25 := hN ▸ t.isLt
  have hr : r.val < 400 := r.isLt
  refine (out4_apply m c t r q ⟨400 * t.val + r.val, by omega⟩ rfl).trans ?_
  show Spec.G _ _ _ _ = Spec.G _ _ _ _
  refine congrArg _ ?_
  funext a; apply Fin.ext
  match a with
  | ⟨0, _⟩ => show 400 * t.val + r.val = win0_4.index t (0 : Fin 2) * 400 + 1 * r.val; omega
  | ⟨1, _⟩ => show q.val = win0_4.index t (1 : Fin 2) * 128 + 1 * q.val; omega

/-- An index of the result array is in point `t`'s block iff each coordinate is in the block's range on its axis. -/
theorem mem_blk4 (t : Fin cfg0.N) (i : S10000x128.Idx) :
    i ∈ ((cfg0.win 4).blk t).view.set
      ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every index of the result array lies in the block of the point `row / 400`, which writes back. -/
theorem cover4 (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  refine ⟨⟨(i 0).val / 400, by rw [hN]; omega⟩, flush0_4 _, ?_⟩
  obtain ⟨-, -, -, -, -, -, -, -, e0, e1⟩ := idx_facts ⟨(i 0).val / 400, by rw [hN]; omega⟩
  rw [mem_blk4]
  intro a
  match a with
  | ⟨0, _⟩ =>
    show win0_4.index _ (0 : Fin 2) * 400 ≤ (i 0).val ∧ (i 0).val < win0_4.index _ (0 : Fin 2) * 400 + 400
    rw [e0]; show (i 0).val / 400 * 400 ≤ (i 0).val ∧ (i 0).val < (i 0).val / 400 * 400 + 400; omega
  | ⟨1, _⟩ =>
    show win0_4.index _ (1 : Fin 2) * 128 ≤ (i 1).val ∧ (i 1).val < win0_4.index _ (1 : Fin 2) * 128 + 128
    rw [e1]; omega

/-- The result array after the 25 write-backs is `adj · (x · w)`: every point writes back its block of it,
    and the blocks cover the array. -/
theorem final4 (c : Dev nD) : (dats (F := Ideal) m 0 c).arrAt 4 cfg0.N
    = Cert.Proof.Spec.G (m ((c : Thread nD τ).loc main_arg0)) (m ((c : Thread nD τ).loc main_arg1)) (m ((c : Thread nD τ).loc main_arg2)) :=
  (dats (F := Ideal) m 0 c).arrAt_eq_of_cover 4 _ (fun t _ => flushed4_eq m c t) fun i => cover4 i

end Final

end Cert.Proof.KernelValue

end
-- ==== Proof.lean ====
/-
  A dense graph-convolution layer, out = adj · x · w, with x of shape [10000, 128], adj of shape [10000, 10000] and
  w of shape [128, 128].

  The kernel computes adj · (x · w): at the first of its 25 grid points it forms Y = x · w once and keeps it in a
  scratch buffer; at every point t it multiplies the two 200-row blocks of adj that make up rows 400t … 400t + 399
  by Y and writes the 400 result rows back. The reference computes (adj · x) · w with two host matrix products.

  Read over the extended reals every product of matrices is a finite sum of products, so the two sides are
  entry (p, q):  sum_k adj[p,k] · (sum_j x[k,j] · w[j,q])   and   sum_j (sum_k adj[p,k] · x[k,j]) · w[j,q].
  They agree by distributivity and an exchange of the two finite sums. Distributivity fails at infinite entries of the
  extended reals, so this is where the precondition is used: every input entry is finite, hence a real number, and the
  identity is the associativity of the product of real matrices.

  The frames (each program runs to the end, faults nowhere, and leaves its arguments unchanged) and the value the
  kernel's result array ends with come from the pipeline's launch: the adjacency matrix is read through two windows,
  which share its ownership half and half, and the scratch's contents Y are the invariant carried from point to point.
-/
import proofs.«166500_g60559038874088_cont_9to1_m_10_19_alg».proof.Defs
import proofs.«166500_g60559038874088_cont_9to1_m_10_19_alg».proof.Proof.Gen.Kernel
import proofs.«166500_g60559038874088_cont_9to1_m_10_19_alg».proof.Proof.Gen.KernelIdeal
import proofs.«166500_g60559038874088_cont_9to1_m_10_19_alg».proof.Proof.Gen.ReferenceIdeal
import proofs.«166500_g60559038874088_cont_9to1_m_10_19_alg».proof.Proof.Gen.ReferenceIdeal.Run
import proofs.«166500_g60559038874088_cont_9to1_m_10_19_alg».proof.Proof.Gen.ReferenceIdeal.Read
import proofs.«166500_g60559038874088_cont_9to1_m_10_19_alg».proof.Proof.Gen.Pre_finite_inputs
import proofs.«166500_g60559038874088_cont_9to1_m_10_19_alg».proof.Proof.Claims
import proofs.«166500_g60559038874088_cont_9to1_m_10_19_alg».proof.Proof.Spec
import proofs.«166500_g60559038874088_cont_9to1_m_10_19_alg».proof.Proof.RefValue
import proofs.«166500_g60559038874088_cont_9to1_m_10_19_alg».proof.Proof.Finite
import proofs.«166500_g60559038874088_cont_9to1_m_10_19_alg».proof.Proof.KernelValue
import Idealize.ShloMosaic.Adequacy
import Idealize.ShloMosaic.Init

noncomputable section

namespace Cert.Proof

open Idealize.ShloMosaic Idealize.ShloMosaic.TcCoe Idealize.SL.Sem

/-- At the ideal level the kernel's result array ends at adj · (x · w) (the value read off the launch) and the
    reference's at (adj · x) · w (its run, read one product at a time); on finite inputs these are one function. -/
theorem algebraic : Cert.algebraic_KernelIdeal_ReferenceIdeal := by
  intro m ρ m' ρ' hpre hagree
  refine ⟨fun c => Cert.Proof.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Proof.KernelValue.final4 m c), (h c).2⟩)
      (Cert.KernelIdeal.Frame.run_named (F := Ideal) m ρ)
  · refine (θ_run Cert.ReferenceIdeal.defs _ _).mono (fun _ h c => ⟨?_, (h c).2⟩)
      (Cert.ReferenceIdeal.Value.run (F := Ideal) m' ρ')
    obtain ⟨hx, ha, hw⟩ := Cert.Proof.Finite.fin_of_pre _ _ _ (hpre c)
    rw [(h c).1, Cert.ReferenceIdeal.Read.val_main_v1_eq, (hagree c).1, (hagree c).2.1, (hagree c).2.2]
    exact Cert.Proof.RefValue.ref_eq_G _ _ _ hx ha hw

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves, algebraic⟩

end Cert.Proof

end
